-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel

variable [Facts]

def fn {F : FTy → Type} [FloatOps F] (main_arg0 : FVec F S16x4096x1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  main_v3
-- ==== Kernel.lean ====
abbrev S16x4096x1024 : Shape := ⟨3, ![16, 4096, 1024]⟩
abbrev S16x1024 : Shape := ⟨2, ![16, 1024]⟩
abbrev S8x512x1024 : Shape := ⟨3, ![8, 512, 1024]⟩
abbrev S8x1024 : Shape := ⟨2, ![8, 1024]⟩
abbrev S8x64x1024 : Shape := ⟨3, ![8, 64, 1024]⟩

abbrev nBuf : Space → Nat
  | .hbm => 2
  | .vmem => 4
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .local _ .vmem, ⟨0, _⟩ => ⟨S8x512x1024, .f32⟩
  | .local _ .vmem, ⟨1, _⟩ => ⟨S8x512x1024, .f32⟩
  | .local _ .vmem, ⟨2, _⟩ => ⟨S8x1024, .f32⟩
  | .local _ .vmem, ⟨3, _⟩ => ⟨S8x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg4 : BitVec 32 := Scf.iv c0_i32_1 c1_i32 k0_t1
  let c64_i32 : BitVec 32 := 64#32
  let v10 : BitVec 32 := Scalar.muli arg4 c64_i32
  v10
def k0_off1 (k0_t1 : Fin k0_t1_loop.trips) : Fin 3 → Nat :=
  let c0_6 : Index := 0#32
  let c0_i32_1 : BitVec 32 := 0#32
  let c1_i32 : BitVec 32 := 1#32
  let arg4 : BitVec 32 := Scf.iv c0_i32_1 c1_i32 k0_t1
  let c64_i32 : BitVec 32 := 64#32
  let v10 : BitVec 32 := Scalar.muli arg4 c64_i32
  let v11 : BitVec 32 := v10
  let v12 : Index := Scalar.indexCast v11
  let c0_7 : Index := 0#32
  ![0, v12.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x1024_S8x1024_0_0 : ∀ a, (![0, 0] : Fin 2 → Nat) a + S8x1024.size a ≤ S8x1024.size a
  h_S8x1024 : 0 < S8x1024.numel
  h_S8x64x1024 : 0 < S8x64x1024.numel
  reduces_S8x64x1024_S8x1024 : S8x64x1024.Reduces [1] S8x1024
  shapeCasts_S8x1024_S8x1024 : S8x1024.ShapeCasts S8x1024
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S8x64x1024.size a ≤ S8x512x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x1024.size a ≤ S16x4096x1024.size a
  hwx0_0 : ∀ i : grid0.Coords, EltTy.bits .f32 = 32 ∨ (Rect.block (s := S16x4096x1024) S8x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S16x1024.size a
  hwx0_1 : ∀ i : grid0.Coords, EltTy.bits .f32 = 32 ∨ (Rect.block (s := S16x1024) S8x1024.size (cc0_transform_1 i) (hinb0_1 i)).WholeWords (EltTy.packing .f32)

variable [Facts₀]

abbrev win0_0 : Pipeline.Window sig grid0 :=
  Pipeline.Window.ofSpec (Memref.whole main_arg0) S8x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S_ : Shape := ⟨0, ![]⟩
abbrev S16x1024 : Shape := ⟨2, ![16, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S_, .f32⟩
  | .hbm, ⟨2, _⟩ => ⟨S16x1024, .f32⟩
  | .hbm, ⟨3, _⟩ => ⟨S_, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S16x4096x1024_S16x1024_d1 : S16x4096x1024.ReducesTo [1] S16x1024
  h_S_ : 0 < S_.numel
  bcast_S_S16x1024 : S_.BroadcastsInDim S16x1024 (![] : Fin 0 → Fin S16x1024.rank)

variable [Facts₀]

class Facts : Prop extends Facts₀ where

variable [Facts]
-- ==== Proof.BodyValue.lean ====
/-
  What one run of the kernel body leaves in the output's staging buffer, as a value, for any float
  interpretation.

  The body carries an [8, 1024] accumulator through a counted loop of 8 trips; trip k loads rows
  64k … 64k+63 of the [8, 512, 1024] input block, sums them over the row axis and adds the result to the
  accumulator. After the loop the body adds the accumulator to what the output buffer holds — the zero block
  it has just stored there when the point is the first of its reduction run, the previous point's result
  otherwise — and stores the sum back over the whole buffer.

  `acc X k` is the accumulator before trip k as a plain recursion over the block's contents X; the value the
  generated run carries through its loop invariant is that recursion (`carried_eq`), and the two cases of
  the body leave `pay4 (acc X 8) zero` and `pay4 (acc X 8) previous` (`out_first`, `out_later`).
-/
import proofs.«114321_j45810121179453_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyValue

open Cert.KernelIdeal Cert.KernelIdeal.Gen

variable {F : FTy → Type} [FloatOps F]

theorem hz : (![0, 0] : Fin 2 → Nat) = fun _ => 0 := funext fun a => by fin_cases a <;> rfl

/-- The loop makes eight trips. -/
theorem trips_eq : k0_t1_loop.trips = 8 := by decide

/-- The rows trip `k` reads: the rectangle [0:8, 64k:64k+64, 0:1024] of the block. -/
abbrev rows (k : Fin k0_t1_loop.trips) : Rect S8x512x1024 :=
  Rect.unit (s := S8x512x1024) (k0_off1 k) S8x64x1024.size (k0_off1_inb k)

/-- The carried accumulator before trip `k`, over the input block's contents `X`: zero, then one trip's
    row sum added per trip. -/
def acc (X : Vec F S8x512x1024 .f32) : ℕ → FVec F S8x1024 .f32
  | 0 => k0_pay2
  | k + 1 => if h : k < k0_t1_loop.trips then k0_pay3 (acc X k) (View.ld X (rows ⟨k, h⟩)) else acc X k

theorem acc_succ (X : Vec F S8x512x1024 .f32) (k : Fin k0_t1_loop.trips) :
    acc X (k.val + 1) = k0_pay3 (acc X k.val) (View.ld X (rows k)) := by
  rw [acc]; exact dif_pos k.isLt

/-- One trip's yield, as the run found it: the payload of the carried value and the rows it loaded. -/
theorem trip_value (𝒱 : Variants) (c : Dev nD) (bd : Option 𝒱.V) (i : grid0.Coords)
    (a1 : Memref sig .tc .vmem S8x512x1024 .f32) (h1 : a1.IsWhole) (a2 : Memref sig .tc .vmem S8x1024 .f32) (h2 : a2.IsWhole)
    (X : Vec F S8x512x1024 .f32) (k : Fin k0_t1_loop.trips) (a : FVec F S8x1024 .f32) :
    tripR_k0_t1 (F := F) 𝒱 c bd i a1 h1 a2 h2 (h1.unread X) k a = k0_pay3 a (View.ld X (rows k)) := by
  unfold tripR_k0_t1 trip_k0_t1
  dsimp only
  rw [View.readAt_eq_ld, h1.read_unread]

/-- The value the run carries into trip `n` is the recursion. -/
theorem carried_eq (𝒱 : Variants) (c : Dev nD) (bd : Option 𝒱.V) (i : grid0.Coords)
    (a1 : Memref sig .tc .vmem S8x512x1024 .f32) (h1 : a1.IsWhole) (a2 : Memref sig .tc .vmem S8x1024 .f32) (h2 : a2.IsWhole)
    (X : Vec F S8x512x1024 .f32) : ∀ n : ℕ,
    st_k0_t1 (F := F) 𝒱 c bd i a1 h1 a2 h2 (h1.unread X) k0_pay2 n = acc X n
  | 0 => rfl
  | n + 1 => by
    rw [st_k0_t1.eq_2, acc]
    unfold st_k0_t1Step
    by_cases h : n < k0_t1_loop.trips
    · rw [dif_pos h, dif_pos h, trip_value, carried_eq 𝒱 c bd i a1 h1 a2 h2 X n]
    · rw [dif_neg h, dif_neg h, carried_eq 𝒱 c bd i a1 h1 a2 h2 X n]

/-- A LATER point of a reduction run: the buffer held `xo`, and ends holding `xo` plus the loop's result. -/
theorem out_later (c : Dev nD) (i : grid0.Coords) (a1 : Memref sig .tc .vmem S8x512x1024 .f32) (h1 : a1.IsWhole)
    (a2 : Memref sig .tc .vmem S8x1024 .f32) (h2 : a2.IsWhole) (hc : ¬cond0_0 i)
    (X : Vec F S8x512x1024 .f32) (xo : Vec F S8x1024 .f32) :
    out0_B_1 c i a1 h1 a2 h2 hc X xo = k0_pay4 (acc X k0_t1_loop.trips) xo := by
  unfold out0_B_1
  rw [View.read_writes_eq_canon _ _ _ (cover0_B_1 c i a1 h1 a2 h2 hc X xo)]
  unfold kernelRun0_B
  dsimp only
  rw [View.canon_unit_zero hz, carried_eq]
  simp only [View.readAt_eq_ld, h2.read_unread, View.ld_unit_zero (S := S8x1024) hz]

/-- The FIRST point of a reduction run: the body stores the zero block, reads it back, and ends holding
    zero plus the loop's result. -/
theorem out_first (c : Dev nD) (i : grid0.Coords) (a1 : Memref sig .tc .vmem S8x512x1024 .f32) (h1 : a1.IsWhole)
    (a2 : Memref sig .tc .vmem S8x1024 .f32) (h2 : a2.IsWhole) (hc : cond0_0 i)
    (X : Vec F S8x512x1024 .f32) :
    out0_A_1 c i a1 h1 a2 h2 hc X = k0_pay4 (acc X k0_t1_loop.trips) (k0_pay1 (F := F)) := by
  unfold out0_A_1
  rw [View.read_writes_eq_canon _ _ _ (cover0_A_1 c i a1 h1 a2 h2 hc X)]
  unfold kernelRun0_A
  dsimp only
  sl_unfold_words
  rw [View.canon_cons_unit_zero (S := S8x1024) hz, View.readCov_unit_zero (S := S8x1024) _ hz, carried_eq]

end Cert.KernelIdeal.BodyValue

end
-- ==== Proof.SumSpec.lean ====
/-
  Summing a [16, 4096, 1024] array over its middle axis: the specification both programs meet, and the
  arithmetic that joins their two arrangements of the sum.

  The result at (b, d) is the sum over all 4096 positions s of x[b, s, d], on the extended reals. The
  kernel reaches it as a running sum over consecutive stretches of the middle axis (64 positions per loop trip,
  512 per grid point, 4096 per output block); the reference sums all 4096 at once, divides by 4096 and
  multiplies by 4096 again. Addition of extended reals is associative and commutative, so cutting the range
  [0, 4096) into consecutive stretches changes nothing; and multiplying by 4096 undoes dividing by 4096 on
  every extended real, the infinities included, because multiplication there is associative too.
-/
import Idealize.ShloMosaic.PureOps.Ideal
import Idealize.ShloMosaic.Lib.ValueIdx

noncomputable section

namespace Cert.SumPool

open Idealize.ShloMosaic Idealize.ShloMosaic.ValueIdx
open scoped BigOperators

/-- The input's shape and the result's. -/
abbrev SX : Shape := ⟨3, ![16, 4096, 1024]⟩
abbrev SO : Shape := ⟨2, ![16, 1024]⟩

/-- The entry x[b, s, d] with the coordinates given as natural numbers (each taken modulo its extent, so that
    the function is total: below the extents it is the entry itself, `at3_ix3`). -/
def at3 (x : SX.Idx → EReal) (b s d : ℕ) : EReal :=
  x (ix3 (⟨b % 16, Nat.mod_lt _ (by norm_num)⟩ : Fin 16) (⟨s % 4096, Nat.mod_lt _ (by norm_num)⟩ : Fin 4096)
    (⟨d % 1024, Nat.mod_lt _ (by norm_num)⟩ : Fin 1024))

theorem at3_ix3 (x : SX.Idx → EReal) (b : Fin 16) (s : Fin 4096) (d : Fin 1024) :
    at3 x b.val s.val d.val = x (ix3 b s d) := by
  unfold at3
  congr 1
  funext a
  match a with
  | ⟨0, _⟩ => exact Fin.ext (Nat.mod_eq_of_lt b.isLt)
  | ⟨1, _⟩ => exact Fin.ext (Nat.mod_eq_of_lt s.isLt)
  | ⟨2, _⟩ => exact Fin.ext (Nat.mod_eq_of_lt d.isLt)

/-- The sum of the `n` consecutive positions `t0, t0 + 1, …, t0 + n - 1` of the middle axis at (b, d). -/
def seg (x : SX.Idx → EReal) (b d t0 n : ℕ) : EReal := ∑ s ∈ Finset.range n, at3 x b (t0 + s) d

theorem seg_zero (x : SX.Idx → EReal) (b d t0 : ℕ) : seg x b d t0 0 = 0 := by
  unfold seg; rw [Finset.range_zero, Finset.sum_empty]

/-- A stretch followed by the stretch that starts where it ends is the stretch of both lengths. -/
theorem seg_append (x : SX.Idx → EReal) (b d t0 n k : ℕ) :
    seg x b d t0 n + seg x b d (t0 + n) k = seg x b d t0 (n + k) := by
  unfold seg
  rw [Finset.sum_range_add]
  simp only [Nat.add_assoc]

/-- A stretch indexed by `Fin k`. -/
theorem seg_fin (x : SX.Idx → EReal) (b d t0 k : ℕ) :
    seg x b d t0 k = ∑ r : Fin k, at3 x b (t0 + r.val) d := by
  unfold seg; rw [Finset.sum_range]

/-- THE SPECIFICATION: at (b, d), the sum over the whole middle axis. -/
def G (x : SX.Idx → EReal) : SO.Idx → EReal := fun i => seg x (i 0).val (i 1).val 0 4096

/-- The whole sum, indexed by `Fin 4096` over the array's own indices. -/
theorem G_eq_sum (x : SX.Idx → EReal) (i : SO.Idx) : G x i = ∑ k : Fin 4096, x (ix3 (i 0) k (i 1)) := by
  unfold G
  rw [seg_fin]
  refine Finset.sum_congr rfl fun k _ => ?_
  rw [Nat.zero_add]
  exact at3_ix3 x (i 0) k (i 1)

/-- Multiplying by 4096 undoes dividing by 4096, on every extended real. -/
theorem mul_div_4096 (s : EReal) : ((4096 : ℝ) : EReal) * Ideal.div s ((4096 : ℝ) : EReal) = s := by
  rw [Ideal.div_coe (by norm_num : (4096 : ℝ) ≠ 0), mul_comm, mul_assoc, ← EReal.coe_mul]
  norm_num

/-- The two float literals of the programs: +0.0 and 4096.0. -/
theorem ofBits_zero : Ideal.ofBits .f32 0x00000000#32 = 0 := by simp [Ideal.ofBits, Ideal.ieee]
theorem ofBits_4096 : Ideal.ofBits .f32 0x45800000#32 = ((4096 : ℝ) : EReal) := by
  simp [Ideal.ofBits, Ideal.ieee, -EReal.coe_mul]; norm_num

end Cert.SumPool

end
-- ==== Proof.PointValue.lean ====
/-
  One run of the kernel body on the extended reals, entry by entry.

  If the [8, 512, 1024] input block holds rows b0 … b0+7, positions t0 … t0+511 of the array x, then before
  trip k the loop's accumulator holds at (p, q) the sum of the 64k positions t0 … t0+64k-1 of row b0+p at
  column q: each trip adds the next 64 positions (the row-axis reduction of the loaded [8, 64, 1024] rows is
  their sum, and consecutive stretches join). After 8 trips that is the whole 512-position stretch, and the
  body leaves it added to zero at the first point of a reduction run, to the previous contents at the later ones.
-/
import proofs.«114321_j45810121179453_2_alg».proof.Proof.BodyValue
import proofs.«114321_j45810121179453_2_alg».proof.Proof.SumSpec
import Idealize.ShloMosaic.PureOps.Ideal.Laws
import Idealize.ShloMosaic.Lib.ValueIdx

noncomputable section

open Idealize.ShloMosaic Idealize.ShloMosaic.TcCoe Idealize.SL.Sem Idealize.ShloMosaic.ValueIdx
open scoped BigOperators

namespace Cert.KernelIdeal.PointValue

open Cert.KernelIdeal Cert.KernelIdeal.Gen Cert.KernelIdeal.BodyValue Cert.SumPool

/-! ## The payloads at an entry -/

/-- The zero block the first point stores, and the loop's initial accumulator: zero everywhere. -/
theorem pay1_apply (p : Fin 8) (q : Fin 1024) : k0_pay1 (F := Ideal) (ix2 p q) = 0 := ofBits_zero
theorem pay2_apply (p : Fin 8) (q : Fin 1024) : k0_pay2 (F := Ideal) (ix2 p q) = 0 := ofBits_zero

/-- One trip: the carried value plus the sum of the loaded rows over the row axis. -/
theorem pay3_apply (a : FVec Ideal S8x1024 .f32) (v : Vec Ideal S8x64x1024 .f32) (p : Fin 8) (q : Fin 1024) :
    k0_pay3 (F := Ideal) a v (ix2 p q) = a (ix2 p q) + ∑ r : Fin 64, v (ix3 p r q) := by
  unfold k0_pay3
  refine congrArg (a (ix2 p q) + ·) ?_
  refine (Ideal.multiReduction_add_single v 0x00000000#32 reduces_S8x64x1024_S8x1024 (.inl rfl) rfl (ix2 p q)).trans ?_
  refine Finset.sum_congr rfl fun r _ => congrArg v ?_
  funext a
  match a with
  | ⟨0, _⟩ => rfl
  | ⟨1, _⟩ => rfl
  | ⟨2, _⟩ => rfl

/-- The final store: what the buffer held plus the loop's result. -/
theorem pay4_apply (v5 : FVec Ideal S8x1024 .f32) (v6 : Vec Ideal S8x1024 .f32) (p : Fin 8) (q : Fin 1024) :
    k0_pay4 (F := Ideal) v5 v6 (ix2 p q) = v6 (ix2 p q) + v5 (ix2 p q) := by
  unfold k0_pay4
  rw [shapeCast_self]
  rfl

/-! ## The rows a trip loads -/

/-- Row `r` of trip `k`'s load is position `64k + r` of the block. -/
theorem rows_apply (X : Vec Ideal S8x512x1024 .f32) (k : Fin k0_t1_loop.trips) (p : Fin 8) (r : Fin 64) (q : Fin 1024)
    (h : 64 * k.val + r.val < 512) :
    View.ld X (rows k) (ix3 p r q) = X (ix3 p (⟨64 * k.val + r.val, h⟩ : Fin 512) q) := by
  show X ((rows k).idx (ix3 p r q)) = _
  congr 1
  funext a
  apply Fin.ext
  rw [LoadRect.idx_apply]
  show k0_off1 k a + 1 * (ix3 p r q a).val = _
  rw [k0_off1_eq k]
  match a with
  | ⟨0, _⟩ => show 0 + 1 * p.val = p.val; omega
  | ⟨1, _⟩ => show 64 * k.val + 1 * r.val = 64 * k.val + r.val; omega
  | ⟨2, _⟩ => show 0 + 1 * q.val = q.val; omega

/-! ## The loop -/

section
variable (x : SX.Idx → EReal) (X : Vec Ideal S8x512x1024 .f32) (b0 t0 : ℕ)
  (hX : ∀ (p : Fin 8) (s : Fin 512) (q : Fin 1024), X (ix3 p s q) = at3 x (b0 + p.val) (t0 + s.val) q.val)
include hX

/-- Before trip `k` the accumulator holds the first `64k` positions of the block's stretch. -/
theorem acc_apply : ∀ k : ℕ, k ≤ 8 → ∀ (p : Fin 8) (q : Fin 1024),
    acc (F := Ideal) X k (ix2 p q) = seg x (b0 + p.val) q.val t0 (64 * k)
  | 0, _, p, q => by
    rw [Nat.mul_zero, seg_zero]
    exact pay2_apply p q
  | k + 1, hk, p, q => by
    have hk8 : k < k0_t1_loop.trips := by rw [trips_eq]; omega
    have e := acc_succ (F := Ideal) X ⟨k, hk8⟩
    dsimp only at e
    rw [e, pay3_apply, acc_apply k (by omega) p q, show 64 * (k + 1) = 64 * k + 64 from by ring, ← seg_append, seg_fin x _ _ (t0 + 64 * k) 64]
    refine congrArg (seg x (b0 + p.val) q.val t0 (64 * k) + ·) (Finset.sum_congr rfl fun r _ => ?_)
    have hr : 64 * k + r.val < 512 := by have := r.isLt; omega
    rw [rows_apply X ⟨k, hk8⟩ p r q hr, hX, Nat.add_assoc]

/-- The first point of a reduction run leaves zero plus the block's whole stretch. -/
theorem first_apply (c : Dev nD) (i : grid0.Coords) (a1 : Memref sig .tc .vmem S8x512x1024 .f32) (h1 : a1.IsWhole)
    (a2 : Memref sig .tc .vmem S8x1024 .f32) (h2 : a2.IsWhole) (hc : cond0_0 i) (p : Fin 8) (q : Fin 1024) :
    out0_A_1 (F := Ideal) c i a1 h1 a2 h2 hc X (ix2 p q) = seg x (b0 + p.val) q.val t0 512 := by
  rw [out_first, pay4_apply, pay1_apply, zero_add, trips_eq, acc_apply x X b0 t0 hX 8 (le_refl _) p q]

/-- A later point leaves the previous contents plus the block's whole stretch. -/
theorem later_apply (c : Dev nD) (i : grid0.Coords) (a1 : Memref sig .tc .vmem S8x512x1024 .f32) (h1 : a1.IsWhole)
    (a2 : Memref sig .tc .vmem S8x1024 .f32) (h2 : a2.IsWhole) (hc : ¬cond0_0 i) (xo : Vec Ideal S8x1024 .f32)
    (p : Fin 8) (q : Fin 1024) :
    out0_B_1 (F := Ideal) c i a1 h1 a2 h2 hc X xo (ix2 p q) = xo (ix2 p q) + seg x (b0 + p.val) q.val t0 512 := by
  rw [out_later, pay4_apply, trips_eq, acc_apply x X b0 t0 hX 8 (le_refl _) p q]

end

end Cert.KernelIdeal.PointValue

end
-- ==== Proof.GridValue.lean ====
/-
  The kernel's result array on the extended reals: the sum of the input over its middle axis.

  The grid is 2 × 8: point n works on rows 8·(n / 8) … 8·(n / 8) + 7 and positions 512·(n % 8) … 512·(n % 8) + 511,
  and the 8 points with the same n / 8 share one output block, which is written back after the last of them.
  By induction along the grid, after point n the output's staging buffer holds at (p, q) the sum of the first
  512·(n % 8 + 1) positions of row 8·(n / 8) + p at column q: the first point of a run starts from zero, each
  later one adds its 512-position stretch to what the point before left, and consecutive stretches join. At the
  last point of a run that is all 4096 positions, which is what is written back to rows 8·(n / 8) … of the
  result; the two blocks written back cover the result array.
-/
import proofs.«114321_j45810121179453_2_alg».proof.Proof.PointValue
import proofs.«114321_j45810121179453_2_alg».proof.Proof.Gen.KernelIdeal.Value
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.GridValue

open Cert.KernelIdeal Cert.KernelIdeal.Gen Cert.KernelIdeal.PointValue Cert.SumPool

variable (m : (ℓ : Loc nD τ sig) → Buf (Elt Ideal) ℓ) (ρ : Dev nD → PrngReg)

/-! ## Where each point's blocks sit -/

/-- The input's block index at point `t` is (t / 8, t % 8, 0), the output's (t / 8, 0): decided over the grid. -/
theorem in_idx : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)

theorem out_idx : ∀ t : Fin cfg0.N, win0_1.index t (0 : Fin 2) = t.val / 8 ∧ win0_1.index t (1 : Fin 2) = 0 :=
  (by decide +kernel : ∀ t : Fin grid0.N, _)

/-- The input block at point `t` holds rows 8·(t / 8) + p, positions 512·(t % 8) + s of the argument array. -/
theorem iblk_apply (c : Dev nD) (t : Fin cfg0.N) (p : Fin 8) (s : Fin 512) (q : Fin 1024) :
    (iblk m c 0 t : Vec Ideal S8x512x1024 .f32) (ix3 p s q)
      = at3 (V m c main_arg0) (8 * (t.val / 8) + p.val) (512 * (t.val % 8) + s.val) q.val := by
  obtain ⟨e0, e1, e2⟩ := in_idx t
  have hN : t.val < 16 := lt_of_lt_of_eq t.isLt N_0
  unfold iblk at3
  rw [View.read_apply]
  show V m c main_arg0 _ = V m c main_arg0 _
  congr 1
  funext a
  apply Fin.ext
  match a with
  | ⟨0, _⟩ => show win0_0.index t (0 : Fin 3) * 8 + 1 * p.val = (8 * (t.val / 8) + p.val) % 16
              rw [e0]; have := p.isLt; omega
  | ⟨1, _⟩ => show win0_0.index t (1 : Fin 3) * 512 + 1 * s.val = (512 * (t.val % 8) + s.val) % 4096
              rw [e1]; have := s.isLt; omega
  | ⟨2, _⟩ => show win0_0.index t (2 : Fin 3) * 1024 + 1 * q.val = q.val % 1024
              rw [e2]; have := q.isLt; omega

/-! ## The running sum along the grid -/

/-- After point `n` the output's staging buffer holds the first 512·(n % 8 + 1) positions' sums. -/
theorem outs_apply (c : Dev nD) : ∀ (n : ℕ) (hn : n < cfg0.N) (p : Fin 8) (q : Fin 1024),
    outsAt0 (F := Ideal) m c n hn (ix2 p q)
      = seg (V m c main_arg0) (8 * (n / 8) + p.val) q.val 0 (512 * (n % 8 + 1))
  | 0, hn, p, q => by
    refine (congrFun (outsAt0_A m c ⟨0, hn⟩ rfl) (ix2 p q)).trans ?_
    exact first_apply (V m c main_arg0) (iblk m c 0 ⟨0, hn⟩) (8 * (0 / 8)) (512 * (0 % 8)) (iblk_apply m c ⟨0, hn⟩) c
      (grid0.coords ⟨0, hn⟩) (ms0_0 ⟨0, hn⟩) (hs0_0 ⟨0, hn⟩) (ms0_1 ⟨0, hn⟩) (hs0_1 ⟨0, hn⟩)
      ((hcond0_0 ⟨0, hn⟩).mpr rfl) p q
  | n + 1, hn, p, q => by
    have hN : n + 1 < 16 := lt_of_lt_of_eq hn N_0
    by_cases h0 : (n + 1) % 8 = 0
    · refine (congrFun (outsAt0_A m c ⟨n + 1, hn⟩ h0) (ix2 p q)).trans ?_
      refine (first_apply (V m c main_arg0) (iblk m c 0 ⟨n + 1, hn⟩) (8 * ((n + 1) / 8)) (512 * ((n + 1) % 8))
        (iblk_apply m c ⟨n + 1, hn⟩) c (grid0.coords ⟨n + 1, hn⟩) (ms0_0 ⟨n + 1, hn⟩) (hs0_0 ⟨n + 1, hn⟩)
        (ms0_1 ⟨n + 1, hn⟩) (hs0_1 ⟨n + 1, hn⟩) ((hcond0_0 ⟨n + 1, hn⟩).mpr h0) p q).trans ?_
      rw [h0]
    · refine (congrFun (outsAt0_B m c ⟨n + 1, hn⟩ h0) (ix2 p q)).trans ?_
      refine (later_apply (V m c main_arg0) (iblk m c 0 ⟨n + 1, hn⟩) (8 * ((n + 1) / 8)) (512 * ((n + 1) % 8))
        (iblk_apply m c ⟨n + 1, hn⟩) c (grid0.coords ⟨n + 1, hn⟩) (ms0_0 ⟨n + 1, hn⟩) (hs0_0 ⟨n + 1, hn⟩)
        (ms0_1 ⟨n + 1, hn⟩) (hs0_1 ⟨n + 1, hn⟩) (fun h => h0 ((hcond0_0 ⟨n + 1, hn⟩).mp h))
        (outsAt0 m c n (Nat.lt_of_succ_lt hn)) p q).trans ?_
      rw [outs_apply c n (Nat.lt_of_succ_lt hn) p q]
      have e1 : (n + 1) / 8 = n / 8 := by omega
      have e2 : (n + 1) % 8 = n % 8 + 1 := by omega
      rw [e1, e2]
      have e3 := seg_append (V m c main_arg0) (8 * (n / 8) + p.val) q.val 0 (512 * (n % 8 + 1)) 512
      rw [Nat.zero_add] at e3
      rw [e3]
      congr 1

/-- The same at any index of the block. -/
theorem outs_apply' (c : Dev nD) (n : ℕ) (hn : n < cfg0.N) (y : S8x1024.Idx) :
    outsAt0 (F := Ideal) m c n hn y
      = seg (V m c main_arg0) (8 * (n / 8) + (y 0).val) (y 1).val 0 (512 * (n % 8 + 1)) := by
  obtain ⟨p, q, rfl⟩ : ∃ (p : Fin 8) (q : Fin 1024), y = ix2 p q := ⟨y 0, y 1, eq_ix2 y⟩
  exact outs_apply m c n hn p q

/-! ## What is written back, and the result array -/

/-- The last point of each run writes back the block of the whole-axis sums. -/
theorem flushed_eq (c : Dev nD) (t : Fin cfg0.N) (hf : (cfg0.win 1).flush t = true) :
    (dats m 0 c).flushed 1 t = ((cfg0.win 1).blk t).view.read (Elt Ideal) (G (V m c main_arg0)) := by
  have h7 : t.val % 8 = 7 := (flush0_1 t).mp hf
  obtain ⟨o0, o1⟩ := out_idx t
  show (cfg0.win 1).cut (grid0.coords t) ((dats m 0 c).after 1 t) = _
  rw [after0_1]
  funext j
  show outsAt0 m c t.val t.isLt j = G (V m c main_arg0) (((cfg0.win 1).blk t).view.emb j)
  refine (outs_apply' m c t.val t.isLt j).trans ?_
  unfold G
  have hv0 : ((((cfg0.win 1).blk t).view.emb j) 0).val = 8 * (t.val / 8) + (j 0).val := by
    show win0_1.index t (0 : Fin 2) * 8 + 1 * (j 0).val = _
    rw [o0]; omega
  have hv1 : ((((cfg0.win 1).blk t).view.emb j) 1).val = (j 1).val := by
    show win0_1.index t (1 : Fin 2) * 1024 + 1 * (j 1).val = _
    rw [o1]; omega
  rw [hv0, hv1, h7]

/-- An index of the result is in point `t`'s block iff each coordinate is in the block's range on its axis. -/
theorem mem_blk (t : Fin cfg0.N) (i : S16x1024.Idx) :
    i ∈ ((cfg0.win 1).blk t).view.set ↔ ∀ a : Fin 2, win0_1.index t a * S8x1024.size a ≤ (i a).val
      ∧ (i a).val < win0_1.index t a * S8x1024.size a + S8x1024.size a := by
  show i ∈ ((View.whole main_v0).slice (win0_1.rect t)).set ↔ _
  rw [View.set_slice_whole, Rect.mem_set_unit]
  exact Iff.rfl

/-- Row `r` of the result lies in the block written back by the last point of run `r / 8`. -/
theorem cover (i : S16x1024.Idx) :
    ∃ t : Fin cfg0.N, (cfg0.win 1).flush t = true ∧ i ∈ ((cfg0.win 1).blk t).view.set := by
  have hi0 : (i 0).val < 16 := (i 0).isLt
  have hi1 : (i 1).val < 1024 := (i 1).isLt
  have hlt : 8 * ((i 0).val / 8) + 7 < cfg0.N :=
    lt_of_lt_of_eq (by omega : 8 * ((i 0).val / 8) + 7 < 16) (show (16 : ℕ) = cfg0.N from N_0.symm)
  obtain ⟨o0, o1⟩ := out_idx ⟨8 * ((i 0).val / 8) + 7, hlt⟩
  dsimp only at o0 o1
  refine ⟨⟨8 * ((i 0).val / 8) + 7, hlt⟩, (flush0_1 _).mpr (by dsimp only; omega), ?_⟩
  rw [mem_blk]
  intro a
  match a with
  | ⟨0, _⟩ => show win0_1.index ⟨8 * ((i 0).val / 8) + 7, hlt⟩ (0 : Fin 2) * 8 ≤ (i 0).val
                ∧ (i 0).val < win0_1.index ⟨8 * ((i 0).val / 8) + 7, hlt⟩ (0 : Fin 2) * 8 + 8
              rw [o0]; omega
  | ⟨1, _⟩ => show win0_1.index ⟨8 * ((i 0).val / 8) + 7, hlt⟩ (1 : Fin 2) * 1024 ≤ (i 1).val
                ∧ (i 1).val < win0_1.index ⟨8 * ((i 0).val / 8) + 7, hlt⟩ (1 : Fin 2) * 1024 + 1024
              rw [o1]; omega

/-- The result array after the run: the whole-axis sums of the argument array. -/
theorem final (c : Dev nD) : (dats m 0 c).arrAt 1 cfg0.N = G (V m c main_arg0) :=
  (dats m 0 c).arrAt_eq_of_cover 1 (G (V m c main_arg0)) (flushed_eq m c) cover

/-- The kernel's run, read: the result at the specification of the argument, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.GridValue

end
-- ==== Proof.RefSide.lean ====
/-
  The reference on the extended reals: 4096 · ((0 + Σ_s x[b, s, d]) / 4096) is the sum itself.

  The reference sums the middle axis from an initial zero, divides every entry by the literal 4096.0 and
  multiplies by the same literal. The literal is the real number 4096; zero is neutral; and on the extended
  reals multiplying by 4096 undoes dividing by 4096 (the infinities included), so the result is the
  specification's whole-axis sum at every entry.
-/
import proofs.«114321_j45810121179453_2_alg».proof.Defs
import proofs.«114321_j45810121179453_2_alg».proof.Proof.Gen.ReferenceIdeal.Read
import proofs.«114321_j45810121179453_2_alg».proof.Proof.SumSpec

noncomputable section

open Idealize.ShloMosaic Idealize.ShloMosaic.ValueIdx
open scoped BigOperators

namespace Cert.ReferenceIdeal.RefValue

open Cert.ReferenceIdeal Cert.ReferenceIdeal.Gen Cert.ReferenceIdeal.Read Cert.SumPool

/-- The reference's last stage, entry by entry, is the whole-axis sum. -/
theorem ref_eq (x : (⟨S16x4096x1024, .f32⟩ : BufTy).Contents (Elt Ideal)) : val_main_v4 (F := Ideal) x = G x := by
  funext i
  rw [val_main_v4_apply, val_main_v3_apply, val_main_cst_1_apply, val_main_v2_apply, val_main_v0_apply,
    val_main_v1_apply, val_main_cst_0_apply, val_main_cst_apply]
  simp only [Ideal.ofBits_def, Ideal.mulf_def, Ideal.hostDivf_def, ofBits_zero, ofBits_4096, zero_add]
  rw [mul_div_4096, G_eq_sum]
  refine Finset.sum_congr rfl fun k _ => congrArg x ?_
  funext a
  match a with
  | ⟨0, _⟩ => rfl
  | ⟨1, _⟩ => rfl
  | ⟨2, _⟩ => rfl

end Cert.ReferenceIdeal.RefValue

end
-- ==== Proof.lean ====
/-
  A pooled sum over the middle axis of a [16, 4096, 1024] array: the tiled, accumulating kernel and the
  mean-times-count reference compute the same [16, 1024] array on the extended reals.

  The kernel walks a 2 × 8 grid. Each point loads an [8, 512, 1024] block, sums it over its 512 positions in
  eight loop trips of 64 positions each, and adds the result into an [8, 1024] output block that the eight
  points of a run share: zeroed at the first, written back after the last. The reference sums all 4096
  positions, divides by 4096 and multiplies by 4096.

  Both are the whole-axis sum Σ_s x[b, s, d] (`Cert.SumPool.G`): the kernel because consecutive stretches of
  the axis join, by associativity of addition (Proof/PointValue.lean for one point, Proof/GridValue.lean along the
  grid and for the result array, over the body's value in Proof/BodyValue.lean); the reference because
  multiplying by 4096 undoes dividing by it on every extended real (Proof/RefSide.lean). Neither step needs
  the entries to be finite. The three programs' frames are the generated ones, the reference's being its
  generated run with the result dropped; the idealization rewrote nothing, so `preserves` is trivial.
-/
import proofs.«114321_j45810121179453_2_alg».proof.Defs
import proofs.«114321_j45810121179453_2_alg».proof.Proof.Gen.Kernel
import proofs.«114321_j45810121179453_2_alg».proof.Proof.Gen.Kernel.Skeleton
import proofs.«114321_j45810121179453_2_alg».proof.Proof.Gen.Kernel.Loops
import proofs.«114321_j45810121179453_2_alg».proof.Proof.Gen.Kernel.Launch
import proofs.«114321_j45810121179453_2_alg».proof.Proof.Gen.Kernel.Points
import proofs.«114321_j45810121179453_2_alg».proof.Proof.Gen.Kernel.Frame
import proofs.«114321_j45810121179453_2_alg».proof.Proof.Gen.KernelIdeal
import proofs.«114321_j45810121179453_2_alg».proof.Proof.Gen.KernelIdeal.Skeleton
import proofs.«114321_j45810121179453_2_alg».proof.Proof.Gen.KernelIdeal.Loops
import proofs.«114321_j45810121179453_2_alg».proof.Proof.Gen.KernelIdeal.Launch
import proofs.«114321_j45810121179453_2_alg».proof.Proof.Gen.KernelIdeal.Points
import proofs.«114321_j45810121179453_2_alg».proof.Proof.Gen.KernelIdeal.Frame
import proofs.«114321_j45810121179453_2_alg».proof.Proof.Gen.KernelIdeal.Value
import proofs.«114321_j45810121179453_2_alg».proof.Proof.Gen.ReferenceIdeal
import proofs.«114321_j45810121179453_2_alg».proof.Proof.Gen.ReferenceIdeal.Run
import proofs.«114321_j45810121179453_2_alg».proof.Proof.Gen.ReferenceIdeal.Read
import proofs.«114321_j45810121179453_2_alg».proof.Proof.Gen.Pre_finite_inputs
import proofs.«114321_j45810121179453_2_alg».proof.Proof.GridValue
import proofs.«114321_j45810121179453_2_alg».proof.Proof.RefSide
import Idealize.ShloMosaic.Adequacy
import Idealize.ShloMosaic.Init

noncomputable section

namespace Cert.Proof

open Idealize.ShloMosaic Idealize.ShloMosaic.TcCoe Idealize.SL.Sem

theorem claim : Cert.Claim :=
  ⟨Cert.Kernel.Gen.facts, Cert.KernelIdeal.Gen.facts, Cert.ReferenceIdeal.Gen.facts, Cert.Pre_finite_inputs.Gen.facts,
    -- the kernel as printed, and its idealization: the generated frames
    fun m ρ _ => Cert.Kernel.Gen.frame m ρ,
    fun m ρ _ => Cert.KernelIdeal.Gen.frame m ρ,
    -- the reference: its run, the result dropped
    fun m ρ _ => (θ_run Cert.ReferenceIdeal.defs _ _).mono (fun _ h c => (h c).2)
      (Cert.ReferenceIdeal.Value.run (F := Ideal) m ρ),
    -- the idealization rewrote nothing
    trivial,
    -- both runs end at the whole-axis sum of arguments that agree
    by
      intro m ρ m' ρ' _ hagree
      refine ⟨fun c => Cert.SumPool.G (m ((c.tc : Thread Cert.KernelIdeal.nD Cert.KernelIdeal.τ).loc Cert.KernelIdeal.main_arg0)),
        Cert.KernelIdeal.GridValue.run m ρ, ?_⟩
      refine (θ_run Cert.ReferenceIdeal.defs _ _).mono (fun _ h c => ⟨(h c).1.trans ?_, (h c).2⟩)
        (Cert.ReferenceIdeal.Value.run (F := Ideal) m' ρ')
      rw [Cert.ReferenceIdeal.Read.val_main_v4_eq, Cert.ReferenceIdeal.RefValue.ref_eq, hagree c]⟩

end Cert.Proof

end
